-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S512x512 : Shape := ⟨2, ![512, 512]⟩
abbrev S3072x768 : Shape := ⟨2, ![3072, 768]⟩
abbrev S768 : Shape := ⟨1, ![768]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S3072x768 : S_.BroadcastsInDim S3072x768 (![] : Fin 0 → Fin S3072x768.rank)
  reducesTo_S3072x768_S_d0_1 : S3072x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S32x512x768 .f32) (main_arg1 : FVec F S512x512 .f32) (main_arg2 : FVec F S3072x768 .f32) (main_arg3 : FVec F S768 .f32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S3072x768 .f32 := Host.absf main_arg2
  let main_cst_2 : FVec F S_ .f32 := constant S_ .f32 0x7F800000#32
  let main_v10 : FVec F S3072x768 .f32 := broadcastInDim S3072x768 ![] bcast_S_S3072x768 main_cst_2
  let main_v11 : IVec S3072x768 1 := cmpf .olt main_v9 main_v10
  let main_c_3 : IVec S_ 1 := constantI S_ 1 1#1
  let main_v12 : IVec S_ 1 := (fun x v => Host.reduce IntOp.andi x v reducesTo_S3072x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S32x512x768 : Shape := ⟨3, ![32, 512, 768]⟩
abbrev S512x512 : Shape := ⟨2, ![512, 512]⟩
abbrev S3072x768 : Shape := ⟨2, ![3072, 768]⟩
abbrev S768 : Shape := ⟨1, ![768]⟩
abbrev S_ : Shape := ⟨0, ![]⟩
abbrev S512 : Shape := ⟨1, ![512]⟩
abbrev S1x512 : Shape := ⟨2, ![1, 512]⟩
abbrev S768x4x768 : Shape := ⟨3, ![768, 4, 768]⟩
abbrev S4x768x768 : Shape := ⟨3, ![4, 768, 768]⟩
abbrev S1x768 : Shape := ⟨2, ![1, 768]⟩
abbrev S1x512x768 : Shape := ⟨3, ![1, 512, 768]⟩
abbrev S512x768 : Shape := ⟨2, ![512, 768]⟩
abbrev S512x3072 : Shape := ⟨2, ![512, 3072]⟩

abbrev nBuf : Space → Nat
  | .hbm => 39
  | .vmem => 7
  | .smem => 0
  | _ => 0

abbrev bufTy : (tb : Table) → Fin (tcTables nBuf tb) → BufTy
  | .hbm, ⟨0, _⟩ => ⟨S32x512x768, .f32⟩
  | .hbm, ⟨1, _⟩ => ⟨S512x512, .f32⟩
  | .hbm, ⟨2, _⟩ => ⟨S3072x768, .f32⟩
  | .hbm, ⟨3, _⟩ => ⟨S768, .f32⟩
  | .hbm, ⟨4, _⟩ => ⟨S512x512, .i32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .i1⟩
  | .hbm, ⟨21, _⟩ => ⟨S_, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S1x512, .f32⟩
  | .hbm, ⟨30, _⟩ => ⟨S512x512, .f32⟩
  | .hbm, ⟨31, _⟩ => ⟨S512x512, .f32⟩
  | .hbm, ⟨32, _⟩ => ⟨S512x512, .bf16⟩
  | .hbm, ⟨33, _⟩ => ⟨S768x4x768, .f32⟩
  | .hbm, ⟨34, _⟩ => ⟨S4x768x768, .f32⟩
  | .hbm, ⟨35, _⟩ => ⟨S3072x768, .f32⟩
  | .hbm, ⟨36, _⟩ => ⟨S3072x768, .bf16⟩
  | .hbm, ⟨37, _⟩ => ⟨S1x768, .f32⟩
  | .hbm, ⟨38, _⟩ => ⟨S32x512x768, .f32⟩
  | .local _ .vmem, ⟨0, _⟩ => ⟨S512x512, .bf16⟩
  | .local _ .vmem, ⟨1, _⟩ => ⟨S1x512x768, .f32⟩
  | .local _ .vmem, ⟨2, _⟩ => ⟨S1x512x768, .f32⟩
  | .local _ .vmem, ⟨3, _⟩ => ⟨S3072x768, .bf16⟩
  | .local _ .vmem, ⟨4, _⟩ => ⟨S1x768, .f32⟩
  | .local _ .vmem, ⟨5, _⟩ => ⟨S1x512x768, .f32⟩
  | .local _ .vmem, ⟨6, _⟩ => ⟨S1x512x768, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v10 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S512x512 : S_.BroadcastsInDim S512x512 (![] : Fin 0 → Fin S512x512.rank)
  reducesTo_S512x512_S512_d1 : S512x512.ReducesTo [1] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  transposes_S512x512_S512x512_1_0 : S512x512.Transposes [1, 0] S512x512
  bitsLt_bf16_f32 : FTy.bits .bf16 < FTy.bits .f32
  shapeCasts_S3072x768_S768x4x768 : S3072x768.ShapeCasts S768x4x768
  transposes_S768x4x768_S4x768x768_1_0_2 : S768x4x768.Transposes [1, 0, 2] S4x768x768
  shapeCasts_S4x768x768_S3072x768 : S4x768x768.ShapeCasts S3072x768
  shapeCasts_S768_S1x768 : S768.ShapeCasts S1x768
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  concatenates_S512x768_S512x768_S512x768_S512x768_S512x3072_d1 : Shape.Concatenates [S512x768, S512x768, S512x768, S512x768] S512x3072 1
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S512x768_S1x512x768 : S512x768.ShapeCasts S1x512x768
  dot_S512x512_S512x768_S512x768_1_0_0_1_n_n_wf : DotDims.WF S512x512 S512x768 S512x768 [1] [0] [0] [1] [] []
  dot_S512x3072_S3072x768_S512x768_1_0_0_1_n_n_wf : DotDims.WF S512x3072 S3072x768 S512x768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x768.size a ≤ S32x512x768.size a
  hwx0_1 : ∀ i : grid0.Coords, EltTy.bits .f32 = 32 ∨ (Rect.block (s := S32x512x768) S1x512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x768.size a ≤ S3072x768.size a
  hwx0_2 : ∀ i : grid0.Coords, EltTy.bits .bf16 = 32 ∨ (Rect.block (s := S3072x768) S3072x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x768.size a ≤ S32x512x768.size a
  hwx0_4 : ∀ i : grid0.Coords, EltTy.bits .f32 = 32 ∨ (Rect.block (s := S32x512x768) S1x512x768.size (cc0_transform_4 i) (hinb0_4 i)).WholeWords (EltTy.packing .f32)

variable [Facts₀]

def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf
def dot_S512x3072_S3072x768_S512x768_1_0_0_1_n_n : DotDims S512x3072 S3072x768 S512x768 where
  lhsContracting := [1]
  rhsContracting := [0]
  lhsNonContracting := [0]
  rhsNonContracting := [1]
  lhsBatch := []
  rhsBatch := []
  wf := dot_S512x3072_S3072x768_S512x768_1_0_0_1_n_n_wf

abbrev win0_0 : Pipeline.Window sig grid0 :=
  Pipeline.Window.ofSpec (Memref.whole main_v19) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S3072x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512x768 : Shape := ⟨3, ![32, 512, 768]⟩
abbrev S512x512 : Shape := ⟨2, ![512, 512]⟩
abbrev S3072x768 : Shape := ⟨2, ![3072, 768]⟩
abbrev S768 : Shape := ⟨1, ![768]⟩
abbrev S_ : Shape := ⟨0, ![]⟩
abbrev S512 : Shape := ⟨1, ![512]⟩
abbrev S1x512 : Shape := ⟨2, ![1, 512]⟩
abbrev S512x768x32 : Shape := ⟨3, ![512, 768, 32]⟩
abbrev S512x24576 : Shape := ⟨2, ![512, 24576]⟩
abbrev S1x512x24576 : Shape := ⟨3, ![1, 512, 24576]⟩
abbrev S4x512x24576 : Shape := ⟨3, ![4, 512, 24576]⟩
abbrev S4x512x768x32 : Shape := ⟨4, ![4, 512, 768, 32]⟩
abbrev S32x512x768x4 : Shape := ⟨4, ![32, 512, 768, 4]⟩
abbrev S16384x3072 : Shape := ⟨2, ![16384, 3072]⟩
abbrev S16384x768 : Shape := ⟨2, ![16384, 768]⟩
abbrev S1x768 : Shape := ⟨2, ![1, 768]⟩

abbrev nBuf : Space → Nat
  | .hbm => 58
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S512x512, .f32⟩
  | .hbm, ⟨2, _⟩ => ⟨S3072x768, .f32⟩
  | .hbm, ⟨3, _⟩ => ⟨S768, .f32⟩
  | .hbm, ⟨4, _⟩ => ⟨S512x512, .i32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .i1⟩
  | .hbm, ⟨21, _⟩ => ⟨S_, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S1x512, .f32⟩
  | .hbm, ⟨30, _⟩ => ⟨S512x512, .f32⟩
  | .hbm, ⟨31, _⟩ => ⟨S512x512, .f32⟩
  | .hbm, ⟨32, _⟩ => ⟨S512x768x32, .f32⟩
  | .hbm, ⟨33, _⟩ => ⟨S512x24576, .f32⟩
  | .hbm, ⟨34, _⟩ => ⟨S512x24576, .f32⟩
  | .hbm, ⟨35, _⟩ => ⟨S512x24576, .f32⟩
  | .hbm, ⟨36, _⟩ => ⟨S_, .f32⟩
  | .hbm, ⟨37, _⟩ => ⟨S512x24576, .f32⟩
  | .hbm, ⟨38, _⟩ => ⟨S512x24576, .f32⟩
  | .hbm, ⟨39, _⟩ => ⟨S512x24576, .f32⟩
  | .hbm, ⟨40, _⟩ => ⟨S512x24576, .f32⟩
  | .hbm, ⟨41, _⟩ => ⟨S_, .f32⟩
  | .hbm, ⟨42, _⟩ => ⟨S512x24576, .f32⟩
  | .hbm, ⟨43, _⟩ => ⟨S512x24576, .f32⟩
  | .hbm, ⟨44, _⟩ => ⟨S512x24576, .f32⟩
  | .hbm, ⟨45, _⟩ => ⟨S1x512x24576, .f32⟩
  | .hbm, ⟨46, _⟩ => ⟨S1x512x24576, .f32⟩
  | .hbm, ⟨47, _⟩ => ⟨S1x512x24576, .f32⟩
  | .hbm, ⟨48, _⟩ => ⟨S1x512x24576, .f32⟩
  | .hbm, ⟨49, _⟩ => ⟨S4x512x24576, .f32⟩
  | .hbm, ⟨50, _⟩ => ⟨S4x512x768x32, .f32⟩
  | .hbm, ⟨51, _⟩ => ⟨S32x512x768x4, .f32⟩
  | .hbm, ⟨52, _⟩ => ⟨S16384x3072, .f32⟩
  | .hbm, ⟨53, _⟩ => ⟨S16384x768, .f32⟩
  | .hbm, ⟨54, _⟩ => ⟨S1x768, .f32⟩
  | .hbm, ⟨55, _⟩ => ⟨S16384x768, .f32⟩
  | .hbm, ⟨56, _⟩ => ⟨S16384x768, .f32⟩
  | .hbm, ⟨57, _⟩ => ⟨S32x512x768, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v10 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  reducesTo_S512x512_S512_d1 : S512x512.ReducesTo [1] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  transposes_S512x512_S512x512_1_0 : S512x512.Transposes [1, 0] S512x512
  transposes_S32x512x768_S512x768x32_1_2_0 : S32x512x768.Transposes [1, 2, 0] S512x768x32
  shapeCasts_S512x768x32_S512x24576 : S512x768x32.ShapeCasts S512x24576
  bcast_S_S512x24576 : S_.BroadcastsInDim S512x24576 (![] : Fin 0 → Fin S512x24576.rank)
  bcast_S512x24576_S1x512x24576_1_2 : S512x24576.BroadcastsInDim S1x512x24576 (![1, 2] : Fin 2 → Fin S1x512x24576.rank)
  concatenates_S1x512x24576_S1x512x24576_S1x512x24576_S1x512x24576_S4x512x24576_d0 : Shape.Concatenates [S1x512x24576, S1x512x24576, S1x512x24576, S1x512x24576] S4x512x24576 0
  shapeCasts_S4x512x24576_S4x512x768x32 : S4x512x24576.ShapeCasts S4x512x768x32
  transposes_S4x512x768x32_S32x512x768x4_3_1_2_0 : S4x512x768x32.Transposes [3, 1, 2, 0] S32x512x768x4
  shapeCasts_S32x512x768x4_S16384x3072 : S32x512x768x4.ShapeCasts S16384x3072
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  shapeCasts_S16384x768_S32x512x768 : S16384x768.ShapeCasts S32x512x768
  dot_S512x512_S512x24576_S512x24576_1_0_0_1_n_n_wf : DotDims.WF S512x512 S512x24576 S512x24576 [1] [0] [0] [1] [] []
  dot_S16384x3072_S3072x768_S16384x768_1_0_0_1_n_n_wf : DotDims.WF S16384x3072 S3072x768 S16384x768 [1] [0] [0] [1] [] []

variable [Facts₀]

def dot_S512x512_S512x24576_S512x24576_1_0_0_1_n_n : DotDims S512x512 S512x24576 S512x24576 where
  lhsContracting := [1]
  rhsContracting := [0]
  lhsNonContracting := [0]
  rhsNonContracting := [1]
  lhsBatch := []
  rhsBatch := []
  wf := dot_S512x512_S512x24576_S512x24576_1_0_0_1_n_n_wf
def dot_S16384x3072_S3072x768_S16384x768_1_0_0_1_n_n : DotDims S16384x3072 S3072x768 S16384x768 where
  lhsContracting := [1]
  rhsContracting := [0]
  lhsNonContracting := [0]
  rhsNonContracting := [1]
  lhsBatch := []
  rhsBatch := []
  wf := dot_S16384x3072_S3072x768_S16384x768_1_0_0_1_n_n_wf

class Facts : Prop extends Facts₀ where

variable [Facts]
-- ==== Proof.Diffusion.lean ====
/-
  The function both programs compute, on the extended reals.

  A graph signal of 512 nodes and 768 features per batch member is diffused three times over a normalised adjacency
  matrix `S` by the Chebyshev recurrence
      T₀ = X,   T₁ = S · X,   Tₘ₊₁ = 2 · (S · Tₘ) − Tₘ₋₁,
  and the four states are projected by one weight matrix whose 3072 rows are ordered feature-major: row `4 d + m`
  multiplies feature `d` of state `m`.  Entry `(b, n, o)` of the result is
      ∑ over j < 3072 of  T_{j mod 4}(b)(n, j / 4) · W(j, o)   +   bias(o).

  A matrix product acts on every column of its right operand by itself, so diffusing one batch member's `[512, 768]`
  slab, or all 32 members laid side by side as `[512, 768 · 32]` columns, gives the same entries.  The only law needed
  to join the two programs is that the 3072 terms of the projection may be summed in another order: one program
  lists them state-major (`768 m + d`), the other feature-major (`4 d + m`).  Addition of extended reals is
  commutative and associative, so no entry has to be finite.
-/
import Idealize.ShloMosaic.Lib.ValueIdx
import Idealize.ShloMosaic.PureOps.Ideal

noncomputable section

namespace Cert.Diffusion

open Idealize.ShloMosaic Idealize.ShloMosaic.ValueIdx
open scoped BigOperators

/-- One batch member's signal: 512 nodes by 768 features. -/
abbrev Slab : Type := Fin 512 → Fin 768 → EReal

/-- The factor of the recurrence: the value of the binary32 word of `2.0`. -/
def two : EReal := Ideal.ofBits .f32 0x40000000#32

/-- One diffusion step: node `n` gathers feature `d` from every node `k`, weighted by `S(n, k)`. -/
def hop (S : (⟨2, ![512, 512]⟩ : Shape).Idx → EReal) (x : Slab) : Slab :=
  fun n d => ∑ k : Fin 512, S (ix2 n k) * x k d

/-- The recurrence's step: twice the diffused current state less the state before it. -/
def next (S : (⟨2, ![512, 512]⟩ : Shape).Idx → EReal) (cur prev : Slab) : Slab :=
  fun n d => two * hop S cur n d - prev n d

/-- The four states T₀ … T₃ of one slab. -/
def states (S : (⟨2, ![512, 512]⟩ : Shape).Idx → EReal) (x : Slab) : Fin 4 → Slab :=
  ![x, hop S x, next S (hop S x) x, next S (next S (hop S x) x) (hop S x)]

/-- Row `j` of the weights multiplies state `j mod 4` … -/
def stateOf (j : Fin 3072) : Fin 4 := ⟨j.val % 4, Nat.mod_lt _ (by decide)⟩
/-- … at feature `j / 4`. -/
def featureOf (j : Fin 3072) : Fin 768 := ⟨j.val / 4, by have := j.isLt; omega⟩

/-- The projection of four states at node `n`, output feature `o`. -/
def project (T : Fin 4 → Slab) (W : (⟨2, ![3072, 768]⟩ : Shape).Idx → EReal) (bias : (⟨1, ![768]⟩ : Shape).Idx → EReal)
    (n : Fin 512) (o : Fin 768) : EReal :=
  (∑ j : Fin 3072, T (stateOf j) n (featureOf j) * W (ix2 j o)) + bias (ix1 o)

/-- Batch member `b` of the input as a slab. -/
def member (X : (⟨3, ![32, 512, 768]⟩ : Shape).Idx → EReal) (b : Fin 32) : Slab := fun n d => X (ix3 b n d)

/-- The whole result: entry `(b, n, o)` is the projection of batch member `b`'s four states. -/
def result (S : (⟨2, ![512, 512]⟩ : Shape).Idx → EReal) (X : (⟨3, ![32, 512, 768]⟩ : Shape).Idx → EReal)
    (W : (⟨2, ![3072, 768]⟩ : Shape).Idx → EReal) (bias : (⟨1, ![768]⟩ : Shape).Idx → EReal) :
    (⟨3, ![32, 512, 768]⟩ : Shape).Idx → EReal :=
  fun i => project (states S (member X (i 0))) W bias (i 1) (i 2)

/-! ## The two orders of the projection's 3072 terms -/

/-- State-major position `768 m + d` ↦ feature-major position `4 d + m`: a permutation of the 3072 rows. -/
def reorder : Fin 3072 ≃ Fin 3072 where
  toFun j := ⟨(j.val % 768) * 4 + j.val / 768, by have := j.isLt; omega⟩
  invFun j := ⟨(j.val % 4) * 768 + j.val / 4, by have := j.isLt; omega⟩
  left_inv j := Fin.ext (by have := j.isLt; show ((j.val % 768) * 4 + j.val / 768) % 4 * 768 + ((j.val % 768) * 4 + j.val / 768) / 4 = j.val; omega)
  right_inv j := Fin.ext (by have := j.isLt; show ((j.val % 4) * 768 + j.val / 4) % 768 * 4 + ((j.val % 4) * 768 + j.val / 4) / 768 = j.val; omega)

theorem stateOf_reorder (j : Fin 3072) : stateOf (reorder j) = ⟨j.val / 768, by have := j.isLt; omega⟩ :=
  Fin.ext (by have := j.isLt; show ((j.val % 768) * 4 + j.val / 768) % 4 = j.val / 768; omega)

theorem featureOf_reorder (j : Fin 3072) : featureOf (reorder j) = ⟨j.val % 768, Nat.mod_lt _ (by decide)⟩ :=
  Fin.ext (by have := j.isLt; show ((j.val % 768) * 4 + j.val / 768) / 4 = j.val % 768; omega)

/-- The projection with its terms listed state-major, against weights whose rows were permuted to match, is the
    projection: the same 3072 products, summed in another order. -/
theorem project_stateMajor (T : Fin 4 → Slab) (W : (⟨2, ![3072, 768]⟩ : Shape).Idx → EReal)
    (bias : (⟨1, ![768]⟩ : Shape).Idx → EReal) (n : Fin 512) (o : Fin 768) :
    (∑ j : Fin 3072, T ⟨j.val / 768, by have := j.isLt; omega⟩ n ⟨j.val % 768, Nat.mod_lt _ (by decide)⟩ * W (ix2 (reorder j) o))
      + bias (ix1 o) = project T W bias n o := by
  unfold project
  congr 1
  refine Fintype.sum_equiv reorder _ _ fun j => ?_
  rw [stateOf_reorder, featureOf_reorder]

end Cert.Diffusion

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.KernelBody.lean ====
/-
  The kernel body's arithmetic, read at one entry of the block it stores.

  At a grid point the body holds the adjacency matrix `s` (512 × 512), one batch member `x` (1 × 512 × 768), the
  re-ordered weights `w` (3072 × 768) and the bias row `bv` (1 × 768).  It forms the four states of the recurrence
  T₀ = x, T₁ = s·T₀, T₂ = 2·(s·T₁) − T₀, T₃ = 2·(s·T₂) − T₁, lays them side by side as one 512 × 3072 matrix (state
  `m` in columns `768 m … 768 m + 767`), multiplies by `w` and adds the bias to every row.  Every matrix product starts
  from a zero accumulator, so it is the plain sum of products; the roundings to bfloat16 in front of each product are
  the identity on the extended reals.  So entry `(0, n, o)` of the stored block is
      ∑ over j < 3072 of  T_{j / 768}(n, j mod 768) · w(j, o)   +   bv(0, o).
-/
import proofs.«128921_j85452669321742_2_alg».proof.Proof.Gen.KernelIdeal.Skeleton
import proofs.«128921_j85452669321742_2_alg».proof.Proof.Diffusion
import proofs.«128921_j85452669321742_2_alg».proof.Proof.LibMlpRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Diffusion
open scoped BigOperators

/-- A 512 × 768 vector as a slab: entry `(n, d)`. -/
def asSlab (y : FVec Ideal S512x768 .f32) : Slab := fun n d => y (ix2 n d)

/-- The batch member the body loaded, with its leading unit axis dropped. -/
def loaded (x : FVec Ideal S1x512x768 .f32) : FVec Ideal S512x768 .f32 := shapeCast S512x768 x shapeCasts_S1x512x768_S512x768

/-- The adjacency block as the products read it. -/
def adjacency (s : FVec Ideal S512x512 .bf16) : FVec Ideal S512x512 .bf16 := shapeCast S512x512 s shapeCasts_S512x512_S512x512

/-- One product of the adjacency block with a state rounded to bfloat16, into a zero accumulator. -/
def diffuse (a : FVec Ideal S512x512 .bf16) (y : FVec Ideal S512x768 .f32) : FVec Ideal S512x768 .f32 :=
  matmul dot_S512x512_S512x768_S512x768_1_0_0_1_n_n none a (truncf .bf16 y bitsLt_bf16_f32) (constant S512x768 .f32 0x00000000#32)

/-- One step of the recurrence as the body spells it. -/
def advance (a : FVec Ideal S512x512 .bf16) (cur prev : FVec Ideal S512x768 .f32) : FVec Ideal S512x768 .f32 :=
  subf (mulf (broadcast S512x768 (Scalar.ofBits .f32 0x40000000#32)) (diffuse a cur)) prev

def t1 (s : FVec Ideal S512x512 .bf16) (x : FVec Ideal S1x512x768 .f32) : FVec Ideal S512x768 .f32 := diffuse (adjacency s) (loaded x)
def t2 (s : FVec Ideal S512x512 .bf16) (x : FVec Ideal S1x512x768 .f32) : FVec Ideal S512x768 .f32 := advance (adjacency s) (t1 s x) (loaded x)
def t3 (s : FVec Ideal S512x512 .bf16) (x : FVec Ideal S1x512x768 .f32) : FVec Ideal S512x768 .f32 := advance (adjacency s) (t2 s x) (t1 s x)

/-- The payload is the projection of the four states laid side by side, plus the bias row repeated down the rows, with
    a leading unit axis put back: the body's own text, its shared values named. -/
theorem payload_eq (s : FVec Ideal S512x512 .bf16) (x : FVec Ideal S1x512x768 .f32) (w : FVec Ideal S3072x768 .bf16) (bv : FVec Ideal S1x768 .f32) :
    k0_pay1 (F := Ideal) s x w bv
      = shapeCast S1x512x768 (addf (matmul dot_S512x3072_S3072x768_S512x768_1_0_0_1_n_n none
          (concatenate S512x3072 1 [⟨S512x768, truncf .bf16 (loaded x) bitsLt_bf16_f32⟩, ⟨S512x768, truncf .bf16 (t1 s x) bitsLt_bf16_f32⟩,
            ⟨S512x768, truncf .bf16 (t2 s x) bitsLt_bf16_f32⟩, ⟨S512x768, truncf .bf16 (t3 s x) bitsLt_bf16_f32⟩]
            concatenates_S512x768_S512x768_S512x768_S512x768_S512x3072_d1)
          (shapeCast S3072x768 w shapeCasts_S3072x768_S3072x768) (constant S512x768 .f32 0x00000000#32))
        (broadcastTo S512x768 (shapeCast S1x768 bv shapeCasts_S1x768_S1x768) broadcasts_S1x768_S512x768)) shapeCasts_S512x768_S1x512x768 := rfl

/-! ## The states, entry by entry -/

theorem loaded_slab (x : FVec Ideal S1x512x768 .f32) : asSlab (loaded x) = fun n d => x (ix3 (0 : Fin 1) n d) := by
  funext n d
  exact shapeCast_1ab_ab_apply x shapeCasts_S1x512x768_S512x768 n d

/-- A product with the adjacency block is one diffusion step of the slab. -/
theorem diffuse_slab (s : FVec Ideal S512x512 .bf16) (y : FVec Ideal S512x768 .f32) :
    asSlab (diffuse (adjacency s) y) = hop s (asSlab y) := by
  funext n d
  show matmul dot_S512x512_S512x768_S512x768_1_0_0_1_n_n none (adjacency s) (truncf .bf16 y bitsLt_bf16_f32) (constant S512x768 .f32 0x00000000#32) (ix2 n d)
    = ∑ k : Fin 512, s (ix2 n k) * y (ix2 k d)
  refine (Cert.LibMlp.matmul_zero_plain 512 512 768 none (adjacency s) (truncf .bf16 y bitsLt_bf16_f32) n d).trans ?_
  refine Finset.sum_congr rfl fun k _ => ?_
  unfold adjacency
  rw [shapeCast_self]
  rfl

/-- The body's step is the recurrence's. -/
theorem advance_slab (s : FVec Ideal S512x512 .bf16) (cur prev : FVec Ideal S512x768 .f32) :
    asSlab (advance (adjacency s) cur prev) = next s (asSlab cur) (asSlab prev) := by
  funext n d
  show Ideal.ofBits .f32 0x40000000#32 * diffuse (adjacency s) cur (ix2 n d) - prev (ix2 n d) = two * hop s (asSlab cur) n d - asSlab prev n d
  rw [← diffuse_slab]
  rfl

/-- The four blocks the body concatenates are the four states of the loaded batch member. -/
theorem pieces_apply (s : FVec Ideal S512x512 .bf16) (x : FVec Ideal S1x512x768 .f32) (m : Fin 4) (n : Fin 512) (d : Fin 768) :
    (![truncf .bf16 (loaded x) bitsLt_bf16_f32, truncf .bf16 (t1 s x) bitsLt_bf16_f32, truncf .bf16 (t2 s x) bitsLt_bf16_f32,
        truncf .bf16 (t3 s x) bitsLt_bf16_f32] : Fin 4 → FVec Ideal S512x768 .bf16) m (ix2 n d)
      = states s (fun n d => x (ix3 (0 : Fin 1) n d)) m n d := by
  have e0 := loaded_slab x
  have e1 : asSlab (t1 s x) = hop s (fun n d => x (ix3 (0 : Fin 1) n d)) := by unfold t1; rw [diffuse_slab, e0]
  have e2 : asSlab (t2 s x) = next s (hop s (fun n d => x (ix3 (0 : Fin 1) n d))) (fun n d => x (ix3 (0 : Fin 1) n d)) := by
    unfold t2; rw [advance_slab, e1, e0]
  have e3 : asSlab (t3 s x) = next s (next s (hop s (fun n d => x (ix3 (0 : Fin 1) n d))) (fun n d => x (ix3 (0 : Fin 1) n d)))
      (hop s (fun n d => x (ix3 (0 : Fin 1) n d))) := by
    unfold t3; rw [advance_slab, e2, e1]
  unfold states
  match m with
  | ⟨0, _⟩ => exact congrFun (congrFun e0 n) d
  | ⟨1, _⟩ => exact congrFun (congrFun e1 n) d
  | ⟨2, _⟩ => exact congrFun (congrFun e2 n) d
  | ⟨3, _⟩ => exact congrFun (congrFun e3 n) d

/-! ## Four blocks side by side -/

/-- Four 512 × 768 blocks joined along the columns, read at `(n, j)`: block `j / 768` at column `j mod 768`. -/
theorem sideBySide_apply (p0 p1 p2 p3 : FVec Ideal S512x768 .bf16) (n : Fin 512) (j : Fin 3072) :
    concatenate S512x3072 1 [⟨S512x768, p0⟩, ⟨S512x768, p1⟩, ⟨S512x768, p2⟩, ⟨S512x768, p3⟩]
        concatenates_S512x768_S512x768_S512x768_S512x768_S512x3072_d1 (ix2 n j)
      = (![p0, p1, p2, p3] : Fin 4 → FVec Ideal S512x768 .bf16) ⟨j.val / 768, by have := j.isLt; omega⟩ (ix2 n ⟨j.val % 768, Nat.mod_lt _ (by decide)⟩) :=
  concatenate_ofFn_apply (t := S512x3072) (s₁ := S512x768) (1 : Fin 2) (![p0, p1, p2, p3] : Fin 4 → FVec Ideal S512x768 .bf16)
    concatenates_S512x768_S512x768_S512x768_S512x768_S512x3072_d1 rfl 768 rfl (ix2 n j) ⟨j.val / 768, by have := j.isLt; omega⟩ rfl
    (ix2 n ⟨j.val % 768, Nat.mod_lt _ (by decide)⟩) rfl
    (fun b hb => match b with
      | ⟨0, _⟩ => rfl
      | ⟨1, _⟩ => absurd rfl hb)

/-! ## The payload at an entry -/

/-- Entry `(0, n, o)` of the stored block: the four states of the loaded batch member, state-major, against the loaded
    weights, plus the bias row's entry of column `o`. -/
theorem payload_apply (s : FVec Ideal S512x512 .bf16) (x : FVec Ideal S1x512x768 .f32) (w : FVec Ideal S3072x768 .bf16) (bv : FVec Ideal S1x768 .f32)
    (n : Fin 512) (o : Fin 768) :
    k0_pay1 (F := Ideal) s x w bv (ix3 (0 : Fin 1) n o)
      = (∑ j : Fin 3072, states s (fun n d => x (ix3 (0 : Fin 1) n d)) ⟨j.val / 768, by have := j.isLt; omega⟩ n ⟨j.val % 768, Nat.mod_lt _ (by decide)⟩
            * w (ix2 j o)) + bv (ix2 (0 : Fin 1) o) := by
  rw [payload_eq, shapeCast_ab_1ab_apply, addf_apply, broadcastTo_1b_ab_apply]
  simp only [shapeCast_self]
  congr 1
  refine (Cert.LibMlp.matmul_zero_plain 512 3072 768 none _ _ n o).trans ?_
  refine Finset.sum_congr rfl fun j _ => ?_
  rw [sideBySide_apply, pieces_apply]

/-! ## The stored block is a block of the whole result -/

/-- If the loaded adjacency block is `S`, the loaded batch member is member `b` of `X`, the loaded weights are `W` with
    its rows re-ordered state-major, and the loaded bias row is `bias`, then entry `(0, n, o)` of the stored block is
    entry `(b, n, o)` of the result: the state-major sum is the feature-major one, term for term in another order. -/
theorem block_value (s : FVec Ideal S512x512 .bf16) (x : FVec Ideal S1x512x768 .f32) (w : FVec Ideal S3072x768 .bf16) (bv : FVec Ideal S1x768 .f32)
    (S : (⟨2, ![512, 512]⟩ : Shape).Idx → EReal) (X : (⟨3, ![32, 512, 768]⟩ : Shape).Idx → EReal)
    (W : (⟨2, ![3072, 768]⟩ : Shape).Idx → EReal) (bias : (⟨1, ![768]⟩ : Shape).Idx → EReal) (b : Fin 32)
    (hs : ∀ n k : Fin 512, s (ix2 n k) = S (ix2 n k))
    (hx : ∀ (n : Fin 512) (d : Fin 768), x (ix3 (0 : Fin 1) n d) = X (ix3 b n d))
    (hw : ∀ (j : Fin 3072) (o : Fin 768), w (ix2 j o) = W (ix2 (reorder j) o))
    (hb : ∀ o : Fin 768, bv (ix2 (0 : Fin 1) o) = bias (ix1 o)) (n : Fin 512) (o : Fin 768) :
    k0_pay1 (F := Ideal) s x w bv (ix3 (0 : Fin 1) n o) = result S X W bias (ix3 b n o) := by
  have es : s = S := funext fun i => by
    obtain ⟨p, q, rfl⟩ : ∃ p q : Fin 512, i = ix2 p q := ⟨i 0, i 1, eq_ix2 i⟩
    exact hs p q
  have ex : (fun n d => x (ix3 (0 : Fin 1) n d)) = member X b := funext fun n => funext fun d => hx n d
  subst es
  rw [payload_apply, ex, hb]
  simp only [hw]
  exact project_stateMajor (states s (member X b)) W bias n o

end Cert.KernelIdeal.Body

end
-- ==== Proof.KernelArrays.lean ====
/-
  The arrays the kernel's grid finds, as functions of the program's arguments.

  Before the grid starts, the host part of the program has written three of the arrays the grid reads:
  * the normalised adjacency matrix, computed from the adjacency argument by the very operations the reference
    program applies (and then rounded to bfloat16, the identity on the extended reals);
  * the weights with their 3072 rows re-ordered from feature-major (`4 d + m`) to state-major (`768 m + d`): viewed
    as [768, 4, 768], the first two axes exchanged, flattened again — so row `j` of the new matrix is row
    `4 (j mod 768) + j / 768` of the argument;
  * the bias as one row.
  The input itself is read as launched.
-/
import proofs.«128921_j85452669321742_2_alg».proof.Proof.Gen.KernelIdeal.Frame
import proofs.«128921_j85452669321742_2_alg».proof.Proof.Gen.ReferenceIdeal.Read
import proofs.«128921_j85452669321742_2_alg».proof.Proof.Diffusion
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

noncomputable section

namespace Cert.KernelIdeal.Arrays

open Cert.KernelIdeal Cert.KernelIdeal.Gen Idealize.ShloMosaic Idealize.ShloMosaic.TcCoe Idealize.SL.Sem Idealize.ShloMosaic.StableHlo
open Idealize.ShloMosaic.ValueIdx Cert.Diffusion

variable (m : (ℓ : Loc nD τ sig) → Buf (Elt Ideal) ℓ)

/-- The bias window's array is the bias argument laid out as one row. -/
theorem biasRow_eq (c : Dev nD) :
    (V m c main_v24 : S1x768.Idx → EReal) = shapeCast S1x768 (m ((c : Thread nD τ).loc main_arg3) : S768.Idx → EReal) shapeCasts_S768_S1x768 := by
  dsimp only [Gen.V]
  simp only [Gen.hostOps0, Gen.hostOps0_1, Gen.hostOps0_2, Gen.hostOps0_3, Gen.hostOps0_4, List.flatten_cons, List.flatten_nil, List.append_nil,
    List.cons_append, List.nil_append]
  after_results
  rfl

theorem biasRow_apply (c : Dev nD) (o : Fin 768) :
    (V m c main_v24 : S1x768.Idx → EReal) (ix2 (0 : Fin 1) o) = (m ((c : Thread nD τ).loc main_arg3) : S768.Idx → EReal) (ix1 o) := by
  rw [biasRow_eq]
  exact shapeCast_a_1a_apply _ shapeCasts_S768_S1x768 (0 : Fin 1) o

/-- The weights window's array is the weights argument viewed as [768, 4, 768], its first two axes exchanged, flattened. -/
theorem weights_eq (c : Dev nD) :
    (V m c main_v23 : S3072x768.Idx → EReal)
      = shapeCast S3072x768 (transpose S4x768x768 [1, 0, 2]
          (shapeCast S768x4x768 (m ((c : Thread nD τ).loc main_arg2) : S3072x768.Idx → EReal) shapeCasts_S3072x768_S768x4x768)
          transposes_S768x4x768_S4x768x768_1_0_2) shapeCasts_S4x768x768_S3072x768 := by
  dsimp only [Gen.V]
  simp only [Gen.hostOps0, Gen.hostOps0_1, Gen.hostOps0_2, Gen.hostOps0_3, Gen.hostOps0_4, List.flatten_cons, List.flatten_nil, List.append_nil,
    List.cons_append, List.nil_append]
  after_results
  rfl

/-- Row `j` of the re-ordered weights is row `reorder j` of the argument. -/
theorem weights_apply (c : Dev nD) (j : Fin 3072) (o : Fin 768) :
    (V m c main_v23 : S3072x768.Idx → EReal) (ix2 j o) = (m ((c : Thread nD τ).loc main_arg2) : S3072x768.Idx → EReal) (ix2 (reorder j) o) := by
  have hj := j.isLt
  rw [weights_eq]
  refine (shapeCast_apply _ shapeCasts_S4x768x768_S3072x768 (ix2 j o)
    (ix3 (⟨j.val / 768, by omega⟩ : Fin 4) (⟨j.val % 768, Nat.mod_lt _ (by decide)⟩ : Fin 768) o) (by
      rw [Shape.rowMajor_val_three, Shape.rowMajor_val_two]
      show (j.val / 768 * 768 + j.val % 768) * 768 + o.val = j.val * 768 + o.val
      omega)).trans ?_
  refine (transpose_apply [1, 0, 2] _ transposes_S768x4x768_S4x768x768_1_0_2
    (ix3 (⟨j.val / 768, by omega⟩ : Fin 4) (⟨j.val % 768, Nat.mod_lt _ (by decide)⟩ : Fin 768) o)
    (ix3 (⟨j.val % 768, Nat.mod_lt _ (by decide)⟩ : Fin 768) (⟨j.val / 768, by omega⟩ : Fin 4) o) (fun a => match a with
      | ⟨0, _⟩ => rfl
      | ⟨1, _⟩ => rfl
      | ⟨2, _⟩ => rfl)).trans ?_
  exact shapeCast_apply _ shapeCasts_S3072x768_S768x4x768
    (ix3 (⟨j.val % 768, Nat.mod_lt _ (by decide)⟩ : Fin 768) (⟨j.val / 768, by omega⟩ : Fin 4) o) (ix2 (reorder j) o) (by
      rw [Shape.rowMajor_val_two, Shape.rowMajor_val_three]
      show (j.val % 768 * 4 + j.val / 768) * 768 + o.val = (j.val % 768 * 4 + j.val / 768) * 768 + o.val
      rfl)

set_option maxRecDepth 8192 in
set_option maxHeartbeats 2000000 in
/-- The adjacency window's array is the normalised adjacency matrix the reference program computes from the same
    argument: the two programs apply the same operations, in the same order, to it. -/
theorem adjacency_eq (c : Dev nD) :
    (V m c main_v19 : S512x512.Idx → EReal)
      = Cert.ReferenceIdeal.Read.val_main_v18 (F := Ideal) (m ((c : Thread nD τ).loc main_arg1)) := by
  dsimp only [Gen.V]
  simp only [Gen.hostOps0, Gen.hostOps0_1, Gen.hostOps0_2, Gen.hostOps0_3, Gen.hostOps0_4, List.flatten_cons, List.flatten_nil, List.append_nil,
    List.cons_append, List.nil_append]
  after_results_simp
  rfl

end Cert.KernelIdeal.Arrays

end
-- ==== Proof.KernelValue.lean ====
/-
  From the blocks the grid writes to the whole result array.

  The grid has 32 points, one per batch member.  At point `t` the adjacency matrix, the re-ordered weights and the bias
  row are read whole (their block index does not move), the input and the output are read and written one batch member
  at a time: block `t` is the slab `[t, 0 … 511, 0 … 767]`.  So what point `t` writes back is member `t` of the result,
  and since every index `(b, n, o)` of the output lies in point `b`'s block, the array ends holding the result everywhere.
-/
import proofs.«128921_j85452669321742_2_alg».proof.Proof.Gen.KernelIdeal.Frame
import proofs.«128921_j85452669321742_2_alg».proof.Proof.Gen.KernelIdeal.Value
import proofs.«128921_j85452669321742_2_alg».proof.Proof.KernelBody
import proofs.«128921_j85452669321742_2_alg».proof.Proof.KernelArrays
import proofs.«128921_j85452669321742_2_alg».proof.Proof.Diffusion
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Diffusion

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the 32 points: the adjacency, weights and bias windows stay on block (0, 0);
    the input and output windows are on block `t` of the batch axis. -/
theorem index_maps : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The batch member point `t` works on. -/
def memberOf (t : Fin cfg0.N) : Fin 32 := ⟨t.val, lt_of_lt_of_eq t.isLt N_0⟩

/-! ## The four input blocks at a point -/

/-- The adjacency block is the whole adjacency array. -/
theorem adjacencyBlock (c : Dev nD) (t : Fin cfg0.N) (n k : Fin 512) :
    (iblk m c 0 t : S512x512.Idx → EReal) (ix2 n k) = (V m c main_v19 : S512x512.Idx → EReal) (ix2 n k) := by
  obtain ⟨e0, e1, -⟩ := index_maps t
  have h : ((cfg0.win 0).blk t).view.emb (ix2 n k) = ix2 n k := by
    funext a; apply Fin.ext
    match a with
    | ⟨0, _⟩ => show win0_0.index t (0 : Fin 2) * 512 + 1 * n.val = n.val; omega
    | ⟨1, _⟩ => show win0_0.index t (1 : Fin 2) * 512 + 1 * k.val = k.val; omega
  show (V m c main_v19 : S512x512.Idx → EReal) (((cfg0.win 0).blk t).view.emb (ix2 n k)) = _
  rw [h]

/-- The input block is batch member `t` of the input as launched. -/
theorem memberBlock (c : Dev nD) (t : Fin cfg0.N) (n : Fin 512) (d : Fin 768) :
    (iblk m c 1 t : S1x512x768.Idx → EReal) (ix3 (0 : Fin 1) n d)
      = (m ((c : Thread nD τ).loc main_arg0) : S32x512x768.Idx → EReal) (ix3 (memberOf t) n d) := by
  obtain ⟨-, -, e0, e1, e2, -⟩ := index_maps t
  have h : ((cfg0.win 1).blk t).view.emb (ix3 (0 : Fin 1) n d) = ix3 (memberOf t) n d := by
    funext a; apply Fin.ext
    match a with
    | ⟨0, _⟩ => show win0_1.index t (0 : Fin 3) * 1 + 1 * 0 = t.val; omega
    | ⟨1, _⟩ => show win0_1.index t (1 : Fin 3) * 512 + 1 * n.val = n.val; omega
    | ⟨2, _⟩ => show win0_1.index t (2 : Fin 3) * 768 + 1 * d.val = d.val; omega
  show (V m c main_arg0 : S32x512x768.Idx → EReal) (((cfg0.win 1).blk t).view.emb (ix3 (0 : Fin 1) n d)) = _
  rw [h, V_main_arg0]

/-- The weights block is the whole re-ordered weights array: row `j` is row `reorder j` of the argument. -/
theorem weightsBlock (c : Dev nD) (t : Fin cfg0.N) (j : Fin 3072) (o : Fin 768) :
    (iblk m c 2 t : S3072x768.Idx → EReal) (ix2 j o)
      = (m ((c : Thread nD τ).loc main_arg2) : S3072x768.Idx → EReal) (ix2 (reorder j) o) := by
  obtain ⟨-, -, -, -, -, e0, e1, -⟩ := index_maps t
  have h : ((cfg0.win 2).blk t).view.emb (ix2 j o) = ix2 j o := by
    funext a; apply Fin.ext
    match a with
    | ⟨0, _⟩ => show win0_2.index t (0 : Fin 2) * 3072 + 1 * j.val = j.val; omega
    | ⟨1, _⟩ => show win0_2.index t (1 : Fin 2) * 768 + 1 * o.val = o.val; omega
  show (V m c main_v23 : S3072x768.Idx → EReal) (((cfg0.win 2).blk t).view.emb (ix2 j o)) = _
  rw [h]
  exact Arrays.weights_apply m c j o

/-- The bias block is the bias row. -/
theorem biasBlock (c : Dev nD) (t : Fin cfg0.N) (o : Fin 768) :
    (iblk m c 3 t : S1x768.Idx → EReal) (ix2 (0 : Fin 1) o) = (m ((c : Thread nD τ).loc main_arg3) : S768.Idx → EReal) (ix1 o) := by
  obtain ⟨-, -, -, -, -, -, -, e0, e1, -⟩ := index_maps t
  have h : ((cfg0.win 3).blk t).view.emb (ix2 (0 : Fin 1) o) = ix2 (0 : Fin 1) o := by
    funext a; apply Fin.ext
    match a with
    | ⟨0, _⟩ => show win0_3.index t (0 : Fin 2) * 1 + 1 * 0 = 0; omega
    | ⟨1, _⟩ => show win0_3.index t (1 : Fin 2) * 768 + 1 * o.val = o.val; omega
  show (V m c main_v24 : S1x768.Idx → EReal) (((cfg0.win 3).blk t).view.emb (ix2 (0 : Fin 1) o)) = _
  rw [h]
  exact Arrays.biasRow_apply m c o

/-! ## What the grid leaves in the output array -/

/-- The result of the adjacency array the grid finds, and of the input, weights and bias as launched. -/
def whole (c : Dev nD) : S32x512x768.Idx → EReal :=
  result (V m c main_v19 : S512x512.Idx → EReal) (m ((c : Thread nD τ).loc main_arg0)) (m ((c : Thread nD τ).loc main_arg2))
    (m ((c : Thread nD τ).loc main_arg3))

/-- What point `t` writes back is block `t` of `whole`. -/
theorem flushed_eq (c : Dev nD) (t : Fin cfg0.N) :
    (dats m 0 c).flushed 4 t = ((cfg0.win 4).blk t).view.read (Elt Ideal) (whole m c) := by
  rw [Value.flushed4]
  unfold out0_4
  rw [View.canon_unit_zero zeros3]
  simp only [View.ld_unit_zero (S := S512x512) zeros2, View.ld_unit_zero (S := S1x512x768) zeros3,
    View.ld_unit_zero (S := S3072x768) zeros2, View.ld_unit_zero (S := S1x768) zeros2]
  refine funext fun (y : S1x512x768.Idx) => ?_
  obtain ⟨u, n, o, rfl⟩ : ∃ (u : Fin 1) (n : Fin 512) (o : Fin 768), y = ix3 u n o := ⟨y 0, y 1, y 2, eq_ix3 y⟩
  obtain rfl : u = 0 := Subsingleton.elim _ _
  obtain ⟨-, -, -, -, -, -, -, -, -, e0, e1, e2⟩ := index_maps t
  have h : ((cfg0.win 4).blk t).view.emb (ix3 (0 : Fin 1) n o) = ix3 (memberOf t) n o := by
    funext a; apply Fin.ext
    match a with
    | ⟨0, _⟩ => show win0_4.index t (0 : Fin 3) * 1 + 1 * 0 = t.val; omega
    | ⟨1, _⟩ => show win0_4.index t (1 : Fin 3) * 512 + 1 * n.val = n.val; omega
    | ⟨2, _⟩ => show win0_4.index t (2 : Fin 3) * 768 + 1 * o.val = o.val; omega
  show k0_pay1 (F := Ideal) (iblk m c 0 t) (iblk m c 1 t) (iblk m c 2 t) (iblk m c 3 t) (ix3 (0 : Fin 1) n o)
      = whole m c (((cfg0.win 4).blk t).view.emb (ix3 (0 : Fin 1) n o))
  rw [h]
  exact Body.block_value (iblk m c 0 t) (iblk m c 1 t) (iblk m c 2 t) (iblk m c 3 t)
    (V m c main_v19 : S512x512.Idx → EReal) (m ((c : Thread nD τ).loc main_arg0)) (m ((c : Thread nD τ).loc main_arg2))
    (m ((c : Thread nD τ).loc main_arg3)) (memberOf t)
    (adjacencyBlock m c t) (memberBlock m c t) (weightsBlock m c t) (biasBlock m c t) n o

/-- An index of the output is in point `t`'s block iff each coordinate is in the block's range on its axis. -/
theorem mem_block (t : Fin cfg0.N) (i : S32x512x768.Idx) :
    i ∈ ((cfg0.win 4).blk t).view.set ↔ ∀ a : Fin 3, win0_4.index t a * S1x512x768.size a ≤ (i a).val
      ∧ (i a).val < win0_4.index t a * S1x512x768.size a + S1x512x768.size a := by
  show i ∈ ((View.whole main_v25).slice (win0_4.rect t)).set ↔ _
  rw [View.set_slice_whole, Rect.mem_set_unit]
  exact Iff.rfl

/-- Every index `(b, n, o)` of the output lies in point `b`'s block. -/
theorem covered (i : S32x512x768.Idx) : ∃ t : Fin cfg0.N, (cfg0.win 4).flush t = true ∧ i ∈ ((cfg0.win 4).blk t).view.set := by
  have hb : (i 0).val < 32 := (i 0).isLt
  have hn : (i 1).val < 512 := (i 1).isLt
  have ho : (i 2).val < 768 := (i 2).isLt
  obtain ⟨t, ht⟩ : ∃ t : Fin cfg0.N, t.val = (i 0).val := ⟨⟨(i 0).val, lt_of_lt_of_eq hb N_0.symm⟩, rfl⟩
  obtain ⟨-, -, -, -, -, -, -, -, -, e0, e1, e2⟩ := index_maps t
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 768 ≤ (i 2).val ∧ (i 2).val < win0_4.index t (2 : Fin 3) * 768 + 768; omega

/-- The output array after the grid is `whole`. -/
theorem final (c : Dev nD) : (dats m 0 c).arrAt 4 cfg0.N = whole m c :=
  (dats m 0 c).arrAt_eq_of_cover 4 (whole m c) (fun t _ => flushed_eq m c t) covered

/-- The kernel program's run: every weakly fair execution ends with the output array at the result of the normalised
    adjacency matrix of the adjacency argument, the input, the weights and the bias, and the arguments unchanged. -/
theorem run : θ_run defs (onTc (τ := τ) (main (F := Ideal))) ⟨m, fun _ => 0, ρ⟩ fun r => ∀ c : Dev nD,
      r.2.mem ((c : Thread nD τ).loc main_v25)
        = result (Cert.ReferenceIdeal.Read.val_main_v18 (F := Ideal) (m ((c : Thread nD τ).loc main_arg1)))
            (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by unfold whole; rw [Arrays.adjacency_eq])), (h c).2⟩)
    (Value.run_blocks m ρ)

end Cert.KernelIdeal.Whole

end
-- ==== Proof.ReferenceValue.lean ====
/-
  The reference program's result, entry by entry.

  The reference lays the 32 batch members side by side: feature `d` of member `b` is column `32 d + b` of a 512 × 24576
  matrix, and it runs the recurrence T₁ = S·T₀, T₂ = 2·(S·T₁) − T₀, T₃ = 2·(S·T₂) − T₁ on that wide matrix.  A matrix
  product with `S` on the left acts on each column by itself, and so do the scaling and the subtraction, so member `b`'s
  columns of each wide state are the states of member `b`'s own slab.  The four wide states are then stacked, re-laid
  as [member, node, feature, state] and flattened to 16384 rows of 3072 entries: row `512 b + n` holds, at position
  `4 d + m`, feature `d` of state `m` at node `n` of member `b`.  One product with the weights, the bias added to
  every row, and the rows re-grouped by member give entry `(b, n, o)` as the projection of member `b`'s four states.
-/
import proofs.«128921_j85452669321742_2_alg».proof.Proof.Gen.ReferenceIdeal.Read
import proofs.«128921_j85452669321742_2_alg».proof.Proof.Diffusion
import proofs.«128921_j85452669321742_2_alg».proof.Proof.LibMlpRows
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.Diffused

open Cert.ReferenceIdeal Cert.ReferenceIdeal.Gen Cert.ReferenceIdeal.Read Idealize.ShloMosaic Idealize.ShloMosaic.ValueIdx Cert.Diffusion
open scoped BigOperators

/-- Feature `d` of batch member `b` is column `32 d + b` of the wide matrices. -/
def col (d : Fin 768) (b : Fin 32) : Fin 24576 := ⟨d.val * 32 + b.val, by have := d.isLt; have := b.isLt; omega⟩

/-- Batch member `b`'s columns of a wide matrix, as a slab. -/
def column (R : FVec Ideal S512x24576 .f32) (b : Fin 32) : Slab := fun n d => R (ix2 n (col d b))

/-- Row `512 b + n` of the flattened matrices is node `n` of member `b`. -/
def row (b : Fin 32) (n : Fin 512) : Fin 16384 := ⟨b.val * 512 + n.val, by have := b.isLt; have := n.isLt; omega⟩

/-! ## The wide states, column by column -/

/-- The input transposed to [node, feature, member] and flattened: member `b`'s columns are member `b`. -/
theorem column_input (X : FVec Ideal S32x512x768 .f32) (b : Fin 32) : column (val_main_v20 (F := Ideal) X) b = member X b := by
  funext n d
  show val_main_v20 (F := Ideal) X (ix2 n (col d b)) = X (ix3 b n d)
  unfold val_main_v20 val_main_v19
  refine (shapeCast_apply _ shapeCasts_S512x768x32_S512x24576 (ix2 n (col d b)) (ix3 n d b) (by
    rw [Shape.rowMajor_val_three, Shape.rowMajor_val_two]
    show (n.val * 768 + d.val) * 32 + b.val = n.val * 24576 + (d.val * 32 + b.val)
    omega)).trans ?_
  exact transpose_apply [1, 2, 0] X transposes_S32x512x768_S512x768x32_1_2_0 (ix3 n d b) (ix3 b n d) (fun a => match a with
    | ⟨0, _⟩ => rfl
    | ⟨1, _⟩ => rfl
    | ⟨2, _⟩ => rfl)

/-- A product with a 512 × 512 matrix on the left diffuses every member's columns by themselves. -/
theorem column_dot (A : FVec Ideal S512x512 .f32) (R : FVec Ideal S512x24576 .f32) (b : Fin 32) :
    column (Host.dotGeneral dot_S512x512_S512x24576_S512x24576_1_0_0_1_n_n none A R) b = hop A (column R b) := by
  funext n d
  show Host.dotGeneral dot_S512x512_S512x24576_S512x24576_1_0_0_1_n_n none A R (ix2 n (col d b)) = ∑ k : Fin 512, A (ix2 n k) * R (ix2 k (col d b))
  simp only [Host.dotGeneral]
  exact Cert.LibMlp.dotGeneral_plain 512 512 24576 none _ A R n (col d b)

/-- Twice a wide matrix less another, column by column. -/
theorem column_step (c2 : FVec Ideal S512x24576 .f32) (hc2 : ∀ i, c2 i = two) (Y Z : FVec Ideal S512x24576 .f32) (b : Fin 32) :
    column (subf (mulf c2 Y) Z) b = fun n d => two * column Y b n d - column Z b n d := by
  funext n d
  show c2 (ix2 n (col d b)) * Y (ix2 n (col d b)) - Z (ix2 n (col d b)) = _
  rw [hc2]
  rfl

theorem twos_v23 (i : S512x24576.Idx) : val_main_v23 (F := Ideal) i = two := by
  unfold val_main_v23; rw [broadcastInDim_scalar_apply]; rfl

theorem twos_v27 (i : S512x24576.Idx) : val_main_v27 (F := Ideal) i = two := by
  unfold val_main_v27; rw [broadcastInDim_scalar_apply]; rfl

theorem column_t1 (X : FVec Ideal S32x512x768 .f32) (A : FVec Ideal S512x512 .f32) (b : Fin 32) :
    column (val_main_v21 (F := Ideal) X A) b = hop (val_main_v18 (F := Ideal) A) (member X b) := by
  unfold val_main_v21; rw [column_dot, column_input]

theorem column_t2 (X : FVec Ideal S32x512x768 .f32) (A : FVec Ideal S512x512 .f32) (b : Fin 32) :
    column (val_main_v25 (F := Ideal) X A) b
      = next (val_main_v18 (F := Ideal) A) (hop (val_main_v18 (F := Ideal) A) (member X b)) (member X b) := by
  unfold val_main_v25 val_main_v24 val_main_v22
  rw [column_step _ twos_v23, column_dot, column_t1, column_input]
  rfl

theorem column_t3 (X : FVec Ideal S32x512x768 .f32) (A : FVec Ideal S512x512 .f32) (b : Fin 32) :
    column (val_main_v29 (F := Ideal) X A) b
      = next (val_main_v18 (F := Ideal) A)
          (next (val_main_v18 (F := Ideal) A) (hop (val_main_v18 (F := Ideal) A) (member X b)) (member X b))
          (hop (val_main_v18 (F := Ideal) A) (member X b)) := by
  unfold val_main_v29 val_main_v28 val_main_v26
  rw [column_step _ twos_v27, column_dot, column_t2, column_t1]
  rfl

/-! ## The stack of the four states, re-laid and flattened -/

/-- A wide matrix given a leading unit axis reads, at `(0, n, c)`, the matrix at `(n, c)`. -/
theorem lead_apply (R : FVec Ideal S512x24576 .f32) (n : Fin 512) (c : Fin 24576) :
    broadcastInDim S1x512x24576 ![1, 2] bcast_S512x24576_S1x512x24576_1_2 R (ix3 (0 : Fin 1) n c) = R (ix2 n c) :=
  broadcastInDim_apply _ bcast_S512x24576_S1x512x24576_1_2 R (ix3 (0 : Fin 1) n c) (ix2 n c) (fun a => match a with
    | ⟨0, _⟩ => by show n.val = if (512 : Nat) = 1 then 0 else n.val; rw [if_neg (by decide)]
    | ⟨1, _⟩ => by show c.val = if (24576 : Nat) = 1 then 0 else c.val; rw [if_neg (by decide)])

/-- The four wide states stacked: layer `m` is state `m`. -/
theorem stack_apply (X : FVec Ideal S32x512x768 .f32) (A : FVec Ideal S512x512 .f32) (m : Fin 4) (n : Fin 512) (c : Fin 24576) :
    val_main_v34 (F := Ideal) X A (ix3 m n c)
      = (![val_main_v20 (F := Ideal) X, val_main_v21 (F := Ideal) X A, val_main_v25 (F := Ideal) X A, val_main_v29 (F := Ideal) X A]
          : Fin 4 → FVec Ideal S512x24576 .f32) m (ix2 n c) := by
  unfold val_main_v34
  refine (concatenate_ofFn_unit_apply (t := S4x512x24576) (s₁ := S1x512x24576) (0 : Fin 3)
    (![val_main_v30 (F := Ideal) X, val_main_v31 (F := Ideal) X A, val_main_v32 (F := Ideal) X A, val_main_v33 (F := Ideal) X A]
      : Fin 4 → FVec Ideal S1x512x24576 .f32)
    concatenates_S1x512x24576_S1x512x24576_S1x512x24576_S1x512x24576_S4x512x24576_d0 rfl rfl (ix3 m n c) m rfl
    (ix3 (0 : Fin 1) n c) (fun a ha => match a with
      | ⟨0, _⟩ => absurd rfl ha
      | ⟨1, _⟩ => rfl
      | ⟨2, _⟩ => rfl)).trans ?_
  match m with
  | ⟨0, _⟩ => exact lead_apply (val_main_v20 (F := Ideal) X) n c
  | ⟨1, _⟩ => exact lead_apply (val_main_v21 (F := Ideal) X A) n c
  | ⟨2, _⟩ => exact lead_apply (val_main_v25 (F := Ideal) X A) n c
  | ⟨3, _⟩ => exact lead_apply (val_main_v29 (F := Ideal) X A) n c

/-- The flattened matrix: row `512 b + n`, position `j`, is state `j mod 4` of member `b` at node `n`, feature `j / 4`. -/
theorem flat_apply (X : FVec Ideal S32x512x768 .f32) (A : FVec Ideal S512x512 .f32) (b : Fin 32) (n : Fin 512) (j : Fin 3072) :
    val_main_v37 (F := Ideal) X A (ix2 (row b n) j)
      = states (val_main_v18 (F := Ideal) A) (member X b) (stateOf j) n (featureOf j) := by
  unfold val_main_v37 val_main_v36 val_main_v35
  refine (shapeCast_apply _ shapeCasts_S32x512x768x4_S16384x3072 (ix2 (row b n) j) (ix4 b n (featureOf j) (stateOf j)) (by
    rw [Shape.rowMajor_val_four, Shape.rowMajor_val_two]
    have := j.isLt
    show ((b.val * 512 + n.val) * 768 + j.val / 4) * 4 + j.val % 4 = (b.val * 512 + n.val) * 3072 + j.val
    omega)).trans ?_
  refine (transpose_apply [3, 1, 2, 0] _ transposes_S4x512x768x32_S32x512x768x4_3_1_2_0 (ix4 b n (featureOf j) (stateOf j))
    (ix4 (stateOf j) n (featureOf j) b) (fun a => match a with
      | ⟨0, _⟩ => rfl
      | ⟨1, _⟩ => rfl
      | ⟨2, _⟩ => rfl
      | ⟨3, _⟩ => rfl)).trans ?_
  refine (shapeCast_apply _ shapeCasts_S4x512x24576_S4x512x768x32 (ix4 (stateOf j) n (featureOf j) b) (ix3 (stateOf j) n (col (featureOf j) b)) (by
    rw [Shape.rowMajor_val_three, Shape.rowMajor_val_four]
    show ((stateOf j).val * 512 + n.val) * 24576 + ((featureOf j).val * 32 + b.val) = (((stateOf j).val * 512 + n.val) * 768 + (featureOf j).val) * 32 + b.val
    omega)).trans ?_
  rw [stack_apply]
  have e0 := column_input X b
  have e1 := column_t1 X A b
  have e2 := column_t2 X A b
  have e3 := column_t3 X A b
  unfold states
  generalize stateOf j = m
  generalize featureOf j = d
  match m with
  | ⟨0, _⟩ => exact congrFun (congrFun e0 n) d
  | ⟨1, _⟩ => exact congrFun (congrFun e1 n) d
  | ⟨2, _⟩ => exact congrFun (congrFun e2 n) d
  | ⟨3, _⟩ => exact congrFun (congrFun e3 n) d

/-! ## The projection and the bias -/

/-- The bias broadcast to one row and then down the 16384 rows reads its entry of the column. -/
theorem bias_apply (bias : FVec Ideal S768 .f32) (r : Fin 16384) (o : Fin 768) :
    val_main_v40 (F := Ideal) bias (ix2 r o) = bias (ix1 o) := by
  rw [val_main_v40_apply, val_main_v39_apply]
  exact congrArg bias (funext fun a => match a with | ⟨0, _⟩ => rfl)

/-- The reference's result is `result` of the normalised adjacency matrix it computes from `A`. -/
theorem value_eq (X : FVec Ideal S32x512x768 .f32) (A : FVec Ideal S512x512 .f32) (W : FVec Ideal S3072x768 .f32) (bias : FVec Ideal S768 .f32) :
    val_main_v42 (F := Ideal) X A W bias = result (val_main_v18 (F := Ideal) A) X W bias := by
  funext i
  obtain ⟨b, n, o, rfl⟩ : ∃ (b : Fin 32) (n : Fin 512) (o : Fin 768), i = ix3 b n o := ⟨i 0, i 1, i 2, eq_ix3 i⟩
  show _ = project (states (val_main_v18 (F := Ideal) A) (member X b)) W bias n o
  unfold val_main_v42
  refine (shapeCast_apply _ shapeCasts_S16384x768_S32x512x768 (ix3 b n o) (ix2 (row b n) o) (by
    rw [Shape.rowMajor_val_two, Shape.rowMajor_val_three]
    rfl)).trans ?_
  unfold val_main_v41 val_main_v38 project
  rw [addf_apply, bias_apply]
  congr 1
  simp only [Host.dotGeneral]
  refine (Cert.LibMlp.dotGeneral_plain 16384 3072 768 none _ _ W (row b n) o).trans ?_
  exact Finset.sum_congr rfl fun j _ => by rw [flat_apply]

end Cert.ReferenceIdeal.Diffused

end
-- ==== Proof.lean ====
/-
  A graph-diffusion layer: the kernel against its reference, on the extended reals.

  Both programs take a batch of 32 graph signals (512 nodes, 768 features), an adjacency matrix, a 3072 × 768 weight
  matrix and a bias.  Both first form the same normalised adjacency matrix `S` from the adjacency argument, by the same
  operations in the same order.  Both then run the recurrence T₀ = X, T₁ = S·X, Tₘ₊₁ = 2·(S·Tₘ) − Tₘ₋₁ up to T₃ and project
  the four states with the weights, row `4 d + m` of which multiplies feature `d` of state `m`, and add the bias.

  They differ in arrangement only.  The reference lays the 32 batch members side by side as the columns of one wide
  matrix and multiplies once; the kernel takes one batch member per grid point.  A product with `S` on the left acts on
  each column by itself, so the states agree entry for entry.  The reference lists the 3072 terms of the projection
  feature-major; the kernel concatenates its four states state-major and re-orders the weight rows to match, so it adds
  the same 3072 products in another order.  Sums of extended reals may be re-ordered freely, so the two results are
  equal at every entry, whether or not every entry is finite; the precondition is not used.

  The three frame claims are the generated frame of each kernel program and the reference's generated run with its
  result dropped; the idealisation rewrote nothing, so there is nothing to preserve.
-/
import proofs.«128921_j85452669321742_2_alg».proof.Defs
import proofs.«128921_j85452669321742_2_alg».proof.Proof.Gen.Kernel
import proofs.«128921_j85452669321742_2_alg».proof.Proof.Gen.Kernel.Frame
import proofs.«128921_j85452669321742_2_alg».proof.Proof.Gen.KernelIdeal
import proofs.«128921_j85452669321742_2_alg».proof.Proof.Gen.KernelIdeal.Frame
import proofs.«128921_j85452669321742_2_alg».proof.Proof.Gen.KernelIdeal.Value
import proofs.«128921_j85452669321742_2_alg».proof.Proof.Gen.ReferenceIdeal
import proofs.«128921_j85452669321742_2_alg».proof.Proof.Gen.ReferenceIdeal.Run
import proofs.«128921_j85452669321742_2_alg».proof.Proof.Gen.ReferenceIdeal.Read
import proofs.«128921_j85452669321742_2_alg».proof.Proof.Gen.Pre_finite_inputs
import proofs.«128921_j85452669321742_2_alg».proof.Proof.KernelValue
import proofs.«128921_j85452669321742_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result array at
    `Cert.Diffusion.result` of the normalised adjacency matrix, the input, the weights and the bias. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.Diffused.value_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
